-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S4096 : Shape := ⟨1, ![4096]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x512x64x64 .f32) (main_arg1 : FVec F S4096 .f32) (main_arg2 : FVec F S4096 .f32) : IVec S_ 1 :=
  let main_v0 : FVec F S8x512x64x64 .f32 := Host.absf main_arg0
  let main_cst : FVec F S_ .f32 := constant S_ .f32 0x7F800000#32
  let main_v1 : FVec F S8x512x64x64 .f32 := broadcastInDim S8x512x64x64 ![] bcast_S_S8x512x64x64 main_cst
  let main_v2 : IVec S8x512x64x64 1 := cmpf .olt main_v0 main_v1
  let main_c : IVec S_ 1 := constantI S_ 1 1#1
  let main_v3 : IVec S_ 1 := (fun x v => Host.reduce IntOp.andi x v reducesTo_S8x512x64x64_S_d0_1_2_3 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x512x64x64 : Shape := ⟨4, ![8, 512, 64, 64]⟩
abbrev S4096 : Shape := ⟨1, ![4096]⟩
abbrev S4096x64x64 : Shape := ⟨3, ![4096, 64, 64]⟩
abbrev S4096x1 : Shape := ⟨2, ![4096, 1]⟩
abbrev S64x64x64 : Shape := ⟨3, ![64, 64, 64]⟩
abbrev S64x1 : Shape := ⟨2, ![64, 1]⟩
abbrev S64 : Shape := ⟨1, ![64]⟩
abbrev S64x1x1 : Shape := ⟨3, ![64, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x512x64x64, .f32⟩
  | .hbm, ⟨1, _⟩ => ⟨S4096, .f32⟩
  | .hbm, ⟨2, _⟩ => ⟨S4096, .f32⟩
  | .hbm, ⟨3, _⟩ => ⟨S4096x64x64, .f32⟩
  | .hbm, ⟨4, _⟩ => ⟨S4096x1, .f32⟩
  | .hbm, ⟨5, _⟩ => ⟨S4096x1, .f32⟩
  | .hbm, ⟨6, _⟩ => ⟨S4096x64x64, .f32⟩
  | .hbm, ⟨7, _⟩ => ⟨S8x512x64x64, .f32⟩
  | .local _ .vmem, ⟨0, _⟩ => ⟨S64x64x64, .f32⟩
  | .local _ .vmem, ⟨1, _⟩ => ⟨S64x64x64, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x64x64, .f32⟩
  | .local _ .vmem, ⟨7, _⟩ => ⟨S64x64x64, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x512x64x64_S4096x64x64 : S8x512x64x64.ShapeCasts S4096x64x64
  shapeCasts_S4096_S4096x1 : S4096.ShapeCasts S4096x1
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  reduces_S64x64x64_S64 : S64x64x64.Reduces [1, 2] S64
  shapeCasts_S64_S64x1x1 : S64.ShapeCasts S64x1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64x1x1 : S64x1.ShapeCasts S64x1x1
  broadcasts_S64x1x1_S64x64x64 : S64x1x1.Broadcasts S64x64x64
  shapeCasts_S4096x64x64_S8x512x64x64 : S4096x64x64.ShapeCasts S8x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x64.size a ≤ S4096x64x64.size a
  hwx0_0 : ∀ i : grid0.Coords, EltTy.bits .f32 = 32 ∨ (Rect.block (s := S4096x64x64) S64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .f32 = 32 ∨ (Rect.block (s := S4096x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x64.size a ≤ S4096x64x64.size a
  hwx0_3 : ∀ i : grid0.Coords, EltTy.bits .f32 = 32 ∨ (Rect.block (s := S4096x64x64) S64x64x64.size (cc0_transform_3 i) (hinb0_3 i)).WholeWords (EltTy.packing .f32)

variable [Facts₀]

abbrev win0_0 : Pipeline.Window sig grid0 :=
  Pipeline.Window.ofSpec (Memref.whole main_v0) S64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x64x64 : Shape := ⟨4, ![8, 512, 64, 64]⟩
abbrev S4096 : Shape := ⟨1, ![4096]⟩
abbrev S4096x4096 : Shape := ⟨2, ![4096, 4096]⟩
abbrev S4096x1 : Shape := ⟨2, ![4096, 1]⟩
abbrev S_ : Shape := ⟨0, ![]⟩
abbrev S4320x1 : Shape := ⟨2, ![4320, 1]⟩
abbrev S288x4096 : Shape := ⟨2, ![288, 4096]⟩
abbrev S288 : Shape := ⟨1, ![288]⟩
abbrev S288x1 : Shape := ⟨2, ![288, 1]⟩

abbrev nBuf : Space → Nat
  | .hbm => 14
  | .vmem => 6
  | .smem => 0
  | _ => 0

abbrev bufTy : (tb : Table) → Fin (tcTables nBuf tb) → BufTy
  | .hbm, ⟨0, _⟩ => ⟨S8x512x64x64, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x1, .f32⟩
  | .hbm, ⟨6, _⟩ => ⟨S_, .i32⟩
  | .hbm, ⟨7, _⟩ => ⟨S_, .f32⟩
  | .hbm, ⟨8, _⟩ => ⟨S4320x1, .f32⟩
  | .hbm, ⟨9, _⟩ => ⟨S_, .i32⟩
  | .hbm, ⟨10, _⟩ => ⟨S_, .f32⟩
  | .hbm, ⟨11, _⟩ => ⟨S4320x1, .f32⟩
  | .hbm, ⟨12, _⟩ => ⟨S4096x4096, .f32⟩
  | .hbm, ⟨13, _⟩ => ⟨S8x512x64x64, .f32⟩
  | .local _ .vmem, ⟨0, _⟩ => ⟨S288x4096, .f32⟩
  | .local _ .vmem, ⟨1, _⟩ => ⟨S288x4096, .f32⟩
  | .local _ .vmem, ⟨2, _⟩ => ⟨S4320x1, .f32⟩
  | .local _ .vmem, ⟨3, _⟩ => ⟨S4320x1, .f32⟩
  | .local _ .vmem, ⟨4, _⟩ => ⟨S288x4096, .f32⟩
  | .local _ .vmem, ⟨5, _⟩ => ⟨S288x4096, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![15], ![false]⟩

def k0_mult1 (i : grid0.Coords) : BitVec 32 :=
  let arg0 : BitVec 32 := BitVec.ofNat 32 (i 0).val
  let c288_i32 : BitVec 32 := 288#32
  let v16 : BitVec 32 := Scalar.muli arg0 c288_i32
  v16
def k0_off1 (i : grid0.Coords) : Fin 2 → Nat :=
  let arg0 : BitVec 32 := BitVec.ofNat 32 (i 0).val
  let c288_i32 : BitVec 32 := 288#32
  let v16 : BitVec 32 := Scalar.muli arg0 c288_i32
  let v17 : BitVec 32 := v16
  let v18 : Index := Scalar.indexCast v17
  let c0_5 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4320x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4320x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S288x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x512x64x64_S4096x4096 : S8x512x64x64.ShapeCasts S4096x4096
  shapeCasts_S4096_S4096x1 : S4096.ShapeCasts S4096x1
  pads_S4096x1_S4320x1_02240_000 : S4096x1.Pads (![0, 0] : Fin 2 → Nat) ![224, 0] ![0, 0] S4320x1
  h_S_ : 0 < S_.numel
  inb_S288x4096_S288x4096_0_0 : ∀ a, (![0, 0] : Fin 2 → Nat) a + S288x4096.size a ≤ S288x4096.size a
  h_S288x4096 : 0 < S288x4096.numel
  shapeCasts_S288x4096_S288x4096 : S288x4096.ShapeCasts S288x4096
  reduces_S288x4096_S288 : S288x4096.Reduces [1] S288
  shapeCasts_S288_S288x1 : S288.ShapeCasts S288x1
  broadcasts_S288x1_S288x4096 : S288x1.Broadcasts S288x4096
  h_S288x1 : 0 < S288x1.numel
  shapeCasts_S288x1_S288x1 : S288x1.ShapeCasts S288x1
  shapeCasts_S4096x4096_S8x512x64x64 : S4096x4096.ShapeCasts S8x512x64x64
  hrank0 : 0 < grid0.rank
  k0_mult1_dvd : ∀ i : grid0.Coords, 288 ∣ (k0_mult1 i).toNat
  k0_off1_inb : ∀ i : grid0.Coords, ∀ a, (k0_off1 i) a + S288x1.size a ≤ S4320x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S288x4096.size a < S4096x4096.size a
  hwx0_0 : ∀ i : grid0.Coords, EltTy.bits .f32 = 32 ∨ (Rect.unit (s := S4096x4096) (fun a => cc0_transform_0 i a * S288x4096.size a) (fun a => (Pipeline.Clip.of (cc0_transform_0 i a) (S288x4096.size a) (S4096x4096.size a)).extent (S288x4096.size a)) fun a => Pipeline.Clip.inb (Pipeline.Clip.ok_of (hstart0_0 i a))).WholeWords (EltTy.packing .f32)
  hwxs0_0 : ∀ i : grid0.Coords, EltTy.bits .f32 = 32 ∨ (Rect.unit (s := S288x4096) (fun _ => 0) (fun a => (Pipeline.Clip.of (cc0_transform_0 i a) (S288x4096.size a) (S4096x4096.size a)).extent (S288x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4320x1.size a ≤ S4320x1.size a
  hwx0_1 : ∀ i : grid0.Coords, EltTy.bits .f32 = 32 ∨ (Rect.block (s := S4320x1) S4320x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4320x1.size a ≤ S4320x1.size a
  hwx0_2 : ∀ i : grid0.Coords, EltTy.bits .f32 = 32 ∨ (Rect.block (s := S4320x1) S4320x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S288x4096.size a < S4096x4096.size a
  hwx0_3 : ∀ i : grid0.Coords, EltTy.bits .f32 = 32 ∨ (Rect.unit (s := S4096x4096) (fun a => cc0_transform_3 i a * S288x4096.size a) (fun a => (Pipeline.Clip.of (cc0_transform_3 i a) (S288x4096.size a) (S4096x4096.size a)).extent (S288x4096.size a)) fun a => Pipeline.Clip.inb (Pipeline.Clip.ok_of (hstart0_3 i a))).WholeWords (EltTy.packing .f32)
  hwxs0_3 : ∀ i : grid0.Coords, EltTy.bits .f32 = 32 ∨ (Rect.unit (s := S288x4096) (fun _ => 0) (fun a => (Pipeline.Clip.of (cc0_transform_3 i a) (S288x4096.size a) (S4096x4096.size a)).extent (S288x4096.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_v0) S288x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S4320x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4320x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v5) S288x4096.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibAdainLaw.lean ====
/-
  Instance normalisation of one row, in the two arrangements the two programs use, on the extended reals, and the
  law that joins them.

  A row `x` over a finite index type, a scale `w`, a shift `b`, a constant `c` standing for one over the row's
  length, and `ε`:
  * two passes: the mean `μ = (Σ x)·c`, the centred row `x − μ`, the variance `(Σ (x − μ)²)·c`, and
    `(x − μ)·(rsqrt(var + ε)·w) + b`;
  * one pass: `μ` as before, the variance as `max((Σ x²)·c − μ², 0)`, a single scale `S = rsqrt(var + ε)·w`, and
    `x·S + (b − μ·S)`.
  When every entry is a real number, `c` times the row's length is one and `ε` is positive, the two agree:
  `Σ (x − μ)² · c = (Σ x²)·c − μ²`, which is nonnegative so the maximum with zero changes nothing, and
  `x·S + (b − μ·S) = (x − μ)·S + b`. Both steps fail at infinite entries, which is why the entries are assumed real.
-/
import Mathlib
import Idealize.ShloMosaic.PureOps.Ideal

noncomputable section

namespace AdainRow

open Idealize.ShloMosaic

variable {ι : Type*} [Fintype ι]

/-- The two-pass arrangement at entry `j`. -/
def twoPass (x : ι → EReal) (w b c ε : EReal) (j : ι) : EReal :=
  (x j - (∑ k, x k) * c)
      * (Ideal.rsqrt ((∑ k, (x k - (∑ k, x k) * c) * (x k - (∑ k, x k) * c)) * c + ε) * w) + b

/-- The one-pass arrangement at entry `j`. -/
def onePass (x : ι → EReal) (w b c ε : EReal) (j : ι) : EReal :=
  x j * (Ideal.rsqrt (max ((∑ k, x k * x k) * c - (∑ k, x k) * c * ((∑ k, x k) * c)) 0 + ε) * w)
    + (b - (∑ k, x k) * c * (Ideal.rsqrt (max ((∑ k, x k * x k) * c - (∑ k, x k) * c * ((∑ k, x k) * c)) 0 + ε) * w))

/-- A finite sum of real numbers, taken on the extended reals, is the real sum. -/
theorem coe_sum {κ : Type*} (s : Finset κ) (f : κ → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The reciprocal square root of a positive real is a real. -/
theorem rsqrt_pos {r : ℝ} (hr : 0 < r) : Ideal.rsqrt (r : EReal) = (((Real.sqrt r)⁻¹ : ℝ) : EReal) := by
  rw [Ideal.rsqrt_coe, if_neg (not_lt.2 hr.le), if_neg hr.ne']

/-- Both arrangements are unchanged by renaming the row's positions. -/
theorem twoPass_comp {κ : Type*} [Fintype κ] (e : κ ≃ ι) (x : ι → EReal) (w b c ε : EReal) (j : κ) :
    twoPass (fun k => x (e k)) w b c ε j = twoPass x w b c ε (e j) := by
  unfold twoPass
  rw [Equiv.sum_comp e x, Equiv.sum_comp e (fun k => (x k - (∑ k, x k) * c) * (x k - (∑ k, x k) * c))]

/-- THE LAW: at real entries, with `c` the reciprocal of the row's length and `ε` positive, the one-pass and the
    two-pass arrangements are equal. -/
theorem onePass_eq_twoPass (x : ι → ℝ) (w b c ε : ℝ) (hc : (Fintype.card ι : ℝ) * c = 1) (hε : 0 < ε) (j : ι) :
    onePass (fun k => (x k : EReal)) w b c ε j = twoPass (fun k => (x k : EReal)) w b c ε j := by
  unfold onePass twoPass
  -- the sums are real
  have h1 : (∑ k, ((x k : ℝ) : EReal)) = ((∑ k, x k : ℝ) : EReal) := coe_sum _ _
  have h2 : (∑ k, ((x k : ℝ) : EReal) * (x k : EReal)) = ((∑ k, x k * x k : ℝ) : EReal) := by
    rw [← coe_sum Finset.univ (fun k => x k * x k)]; exact Finset.sum_congr rfl fun k _ => (EReal.coe_mul _ _).symm
  set s1 : ℝ := ∑ k, x k with hs1
  set μ : ℝ := s1 * c with hμ
  have h3 : (∑ k, (((x k : ℝ) : EReal) - (s1 : EReal) * (c : EReal)) * ((x k : EReal) - (s1 : EReal) * (c : EReal)))
      = ((∑ k, (x k - μ) * (x k - μ) : ℝ) : EReal) := by
    rw [← coe_sum Finset.univ (fun k => (x k - μ) * (x k - μ))]; refine Finset.sum_congr rfl fun k _ => ?_
    rw [← EReal.coe_mul, ← EReal.coe_sub, ← EReal.coe_mul]
  rw [h1, h2, h3]
  -- the two variances are one real number
  have hvar : (∑ k, (x k - μ) * (x k - μ)) * c = (∑ k, x k * x k) * c - μ * μ := by
    have e : ∑ k, (x k - μ) * (x k - μ) = (∑ k, x k * x k) - 2 * μ * s1 + (Fintype.card ι : ℝ) * (μ * μ) := by
      have : ∀ k, (x k - μ) * (x k - μ) = x k * x k - 2 * μ * x k + μ * μ := fun k => by ring
      simp only [this, Finset.sum_add_distrib, Finset.sum_sub_distrib, ← Finset.mul_sum, Finset.sum_const,
        Finset.card_univ, nsmul_eq_mul, hs1]
      ring
    rw [e]
    have : (Fintype.card ι : ℝ) * (μ * μ) * c = μ * μ := by
      calc (Fintype.card ι : ℝ) * (μ * μ) * c = ((Fintype.card ι : ℝ) * c) * (μ * μ) := by ring
        _ = μ * μ := by rw [hc, one_mul]
    calc ((∑ k, x k * x k) - 2 * μ * s1 + (Fintype.card ι : ℝ) * (μ * μ)) * c
        = (∑ k, x k * x k) * c - 2 * μ * (s1 * c) + (Fintype.card ι : ℝ) * (μ * μ) * c := by ring
      _ = (∑ k, x k * x k) * c - μ * μ := by rw [this, ← hμ]; ring
  have hc0 : 0 ≤ c := by
    by_contra hneg
    have hneg : c < 0 := not_le.1 hneg
    have : (Fintype.card ι : ℝ) * c ≤ 0 := mul_nonpos_of_nonneg_of_nonpos (Nat.cast_nonneg _) hneg.le
    linarith
  have hnn : 0 ≤ (∑ k, x k * x k) * c - μ * μ := by
    rw [← hvar]; exact mul_nonneg (Finset.sum_nonneg fun k _ => mul_self_nonneg _) hc0
  set v : ℝ := (∑ k, x k * x k) * c - μ * μ with hv
  have hmax : max ((((∑ k, x k * x k : ℝ) : EReal)) * (c : EReal) - (s1 : EReal) * (c : EReal) * ((s1 : EReal) * (c : EReal))) 0
      = (v : EReal) := by
    rw [← EReal.coe_mul, ← EReal.coe_mul, ← EReal.coe_mul, ← EReal.coe_sub, ← EReal.coe_zero,
      ← (EReal.coe_strictMono.monotone.map_max (a := v) (b := 0)), max_eq_left hnn]
  have hvr : (((∑ k, (x k - μ) * (x k - μ) : ℝ) : EReal)) * (c : EReal) = (v : EReal) := by
    rw [← EReal.coe_mul, hvar]
  rw [hmax, hvr, ← EReal.coe_add, rsqrt_pos (by linarith : 0 < v + ε)]
  simp only [← EReal.coe_mul, ← EReal.coe_sub, ← EReal.coe_add]
  congr 1
  ring

end AdainRow

end
-- ==== Proof.LibRowBlock3.lean ====
/-
  Two forms met when a rank-3 block [a, b, c] is normalised along its two trailing axes, read at an index for
  any extents: a per-row value kept as an [a, 1, 1] array spread over the whole block, and the sum of the block
  over the two trailing axes on the extended reals as a sum over pairs (j, k).
-/
import Idealize.ShloMosaic.Lib.Pipeline.Value
import Idealize.ShloMosaic.Lib.ValueIdx
import Idealize.ShloMosaic.PureOps.Ideal.Laws

namespace RowBlock3

open Idealize.ShloMosaic Idealize.ShloMosaic.ValueIdx

variable {α : Type}

/-- An [a, 1, 1] array spread over [a, b, c] reads, at (i, j, k), the operand at (i, 0, 0): the leading coordinate
    is kept (also when a = 1, where it can only be 0) and the two unit axes are read at 0. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- The kept coordinate of an index of [a, b, c] reduced along axes 1 and 2 is its leading one. -/
theorem drop12_val {a b c : ℕ} (h : (⟨3, ![a, b, c]⟩ : Shape).Reduces [1, 2] (⟨1, ![a]⟩ : Shape))
    (i : (⟨3, ![a, b, c]⟩ : Shape).Idx) : (h.drop i (0 : Fin 1) : ℕ) = (i 0 : ℕ) := rfl

/-- On the extended reals the sum of an [a, b, c] array along its two trailing axes is, at i, the sum over the
    pairs (j, k) of the entries (i, j, k): the indices that reduce to i are exactly those with leading coordinate
    i, one for each pair, and there is no rounding for the order of the additions to matter. -/
theorem sum12_apply {a b c : ℕ} (src : FVec Ideal ⟨3, ![a, b, c]⟩ .f32)
    (h : (⟨3, ![a, b, c]⟩ : Shape).Reduces [1, 2] (⟨1, ![a]⟩ : Shape)) (hφ : FKind.Formats .f32)
    (hacc : (0x00000000#32 : BitVec 32) = 0x00000000#32) (i : Fin a) :
    multiReduction (F := Ideal) .add [1, 2] ⟨1, ![a]⟩ src 0x00000000#32 h hφ hacc (ix1 i)
      = ∑ q : Fin b × Fin c, src (ix3 i q.1 q.2) := by
  show Ideal.reduceAdd h src (ix1 i) = _
  unfold Ideal.reduceAdd
  symm
  refine Finset.sum_bij (fun q _ => ix3 i q.1 q.2) ?_ ?_ ?_ ?_
  · intro q _
    rw [Finset.mem_filter]
    refine ⟨Finset.mem_univ _, ?_⟩
    funext d; apply Fin.ext
    match d with
    | ⟨0, _⟩ => exact drop12_val h _
  · intro q _ q' _ e
    have e1 := congrFun e 1
    have e2 := congrFun e 2
    exact Prod.ext e1 e2
  · intro y hy
    rw [Finset.mem_filter] at hy
    refine ⟨(y 1, y 2), Finset.mem_univ _, ?_⟩
    have e0 : (y 0 : ℕ) = i.val := by
      have := congrArg (fun z => (z (0 : Fin 1) : ℕ)) hy.2
      simpa [drop12_val] using this
    funext d; apply Fin.ext
    match d with
    | ⟨0, _⟩ => exact e0.symm
    | ⟨1, _⟩ => rfl
    | ⟨2, _⟩ => rfl
  · intro q _; rfl

end RowBlock3
-- ==== Proof.LibTrailingUnit.lean ====
/-
  Layout operations that add, drop or spread a TRAILING unit axis, and the sum along the last axis of a rank-3
  array, each read at an index written by its coordinates, for any extents.

  A trailing unit axis does not move an entry's row-major position: `(i)` in `[a]`, `(i, 0)` in `[a, 1]` and
  `(i, 0, 0)` in `[a, 1, 1]` all sit at position `i`, and `(i, j)` in `[a, b]` sits where `(i, j, 0)` does in
  `[a, b, 1]`. A broadcast reads a unit axis of its operand at 0 and keeps every other coordinate. On the extended
  reals the sum of an `[a, b, c]` array along its last axis is, at `(i, j)`, the sum over `k` of the entries `(i, j, k)`.
-/
import Idealize.ShloMosaic.Lib.Pipeline.Value
import Idealize.ShloMosaic.Lib.ValueIdx
import Idealize.ShloMosaic.PureOps.Ideal.Laws

namespace TrailingUnit

open Idealize.ShloMosaic Idealize.ShloMosaic.ValueIdx

variable {α : Type}

/-- An `[a, 1]` column cast to a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to `[a, 1, 1]` reads, at `(i, u, z)`, the vector at `i`. -/
theorem shapeCast_a_a11_apply {a : ℕ} (x : (⟨1, ![a]⟩ : Shape).Idx → α)
    (h : (⟨1, ![a]⟩ : Shape).ShapeCasts ⟨3, ![a, 1, 1]⟩) (i : Fin a) (u z : Fin 1) :
    shapeCast ⟨3, ![a, 1, 1]⟩ x h (ix3 i u z) = x (ix1 i) :=
  shapeCast_apply x h _ _ (by
    have hu : u.val = 0 := by omega
    have hz : z.val = 0 := by omega
    rw [Shape.rowMajor_val_three, Shape.rowMajor_val_one]
    show i.val = (i.val * 1 + u.val) * 1 + z.val
    omega)

/-- An `[a, b]` array cast to `[a, b, 1]` reads, at `(i, j, z)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ x h (ix3 i j z) = x (ix2 i j) :=
  shapeCast_apply x h _ _ (by
    have hz : z.val = 0 := by omega
    rw [Shape.rowMajor_val_three, Shape.rowMajor_val_two]
    show i.val * b + j.val = (i.val * b + j.val) * 1 + z.val
    rw [hz, Nat.mul_one, Nat.add_zero])

/-- An `[a, 1, 1]` array broadcast to `[a, b, 1]` reads, at `(i, j, z)`, the operand at `(i, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (z : Fin 1) :
    broadcastTo ⟨3, ![a, b, 1]⟩ v h (ix3 i j z) = v (ix3 i (0 : Fin 1) (0 : Fin 1)) := by
  refine broadcastTo_apply v h (ix3 i j z) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index of an `[a, b, c]` array that lies over `(i, j)` of the reduced `[a, b]` with the last coordinate
    `k` put back is `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

/-- On the extended reals the sum of an `[a, b, c]` array along its last axis is, at `(i, j)`, the sum over `k` of
    the entries `(i, j, k)`: the reduction starts from the zero word, the neutral element of the sum. -/
theorem lastSum_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = 0x00000000#32) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_last h i j k)

/-- The same sum with the starting word's neutrality stated against the sum's neutral element, the form in which a
    printed reduction carries it. -/
theorem lastSum_neutral_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = FKind.add.neutral .f32 hφ) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_last h i j k)

/-- The index of an `[a, b]` array that lies over `i` of the reduced `[a]` with the last coordinate `k` put back
    is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext ax; apply Fin.ext
  fin_cases ax <;> rfl

/-- On the extended reals the sum of an `[a, b]` array along its last axis is, at `i`, the sum over `k` of the
    entries `(i, k)`, with the starting word's neutrality stated against the sum's neutral element. -/
theorem rowSum_neutral_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  exact Finset.sum_congr rfl fun k _ => congrArg src (lift_row h i k)

end TrailingUnit
-- ==== Proof.KerPayload.lean ====
/-
  The idealized kernel's body at an index. The body holds a block of 64 rows, each a 64 × 64 image; entry
  (p, h, w) of what it stores is the one-pass instance normalisation of row p's image at (h, w), with row p's
  scale and shift: the sums over the two image axes are sums over the pairs (h, w), the per-row quantities are
  kept as [64, 1, 1] arrays and spread back over the block.
-/
import proofs.«136191_g2000609365309440_pallasbulk_1167_4_alg».proof.Proof.Gen.KernelIdeal.Skeleton
import proofs.«136191_g2000609365309440_pallasbulk_1167_4_alg».proof.Proof.LibAdainLaw
import proofs.«136191_g2000609365309440_pallasbulk_1167_4_alg».proof.Proof.LibRowBlock3
import proofs.«136191_g2000609365309440_pallasbulk_1167_4_alg».proof.Proof.LibTrailingUnit
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen
open Idealize.ShloMosaic Idealize.ShloMosaic.ValueIdx

theorem rsqrt_apply {s : Shape} (a : FVec Ideal s .f32) (i : s.Idx) : rsqrt a i = Ideal.rsqrt (a i) := rfl

/-- Entry (p, h, w) of what the body stores, from the block `x0` and the blocks `x1`, `x2` of the scale and shift
    columns: the one-pass normalisation of row p. -/
theorem pay_apply (x0 : Vec Ideal S64x64x64 .f32) (x1 x2 : Vec Ideal S64x1 .f32) (p h w : Fin 64) :
    k0_pay1 (F := Ideal) x0 x1 x2 (ix3 p h w)
      = AdainRow.onePass (fun q : Fin 64 × Fin 64 => x0 (ix3 p q.1 q.2)) (x1 (ix2 p (0 : Fin 1))) (x2 (ix2 p (0 : Fin 1)))
          (Ideal.ofBits .f32 0x39800000#32) (Ideal.ofBits .f32 0x3727C5AC#32) (h, w) := by
  have hs : ∀ src : FVec Ideal S64x64x64 .f32,
      multiReduction (F := Ideal) .add [1, 2] S64 src 0x00000000#32 reduces_S64x64x64_S64 (.inl rfl) rfl (ix1 p)
        = ∑ q : Fin 64 × Fin 64, src (ix3 p q.1 q.2) := fun src => RowBlock3.sum12_apply src _ _ _ p
  unfold k0_pay1 AdainRow.onePass
  simp only [shapeCast_self]
  simp only [addf_apply, mulf_apply, subf_apply, maximumf_apply, rsqrt_apply, broadcast_apply,
    RowBlock3.broadcastTo_a11_abc_apply, TrailingUnit.shapeCast_a_a11_apply, TrailingUnit.shapeCast_ab_ab1_apply,
    Scalar.ofBits, Ideal.ofBits_def, Ideal.ofBits_zero_f32, hs]

end Cert.KernelIdeal.KerValue

end
-- ==== Proof.KerFinal.lean ====
/-
  The idealized kernel's result array. The pallas_call runs over 64 grid points; point t holds rows 64·t … 64·t + 63
  of the [4096, 64, 64] array, with the same rows of the scale and shift columns, and writes back the one-pass
  normalisation of each of its rows. The blocks tile the array, so after the run entry (R, h, w) of the result is
  the one-pass normalisation of row R's image at (h, w) with row R's scale and shift. Around the call the arguments
  are reshaped: x [8, 512, 64, 64] to [4096, 64, 64], the scale and shift [4096] to columns [4096, 1], and the
  result back to [8, 512, 64, 64].
-/
import proofs.«136191_g2000609365309440_pallasbulk_1167_4_alg».proof.Proof.Gen.KernelIdeal.Frame
import proofs.«136191_g2000609365309440_pallasbulk_1167_4_alg».proof.Proof.KerPayload
import Idealize.ShloMosaic.Lib.Pipeline.Value
import Idealize.ShloMosaic.Lib.StableHlo.Run
import Idealize.ShloMosaic.Lib.ValueIdx

set_option maxRecDepth 16384

noncomputable section

namespace Cert.KernelIdeal.KerValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result array as one function of the three arrays the call reads: entry (R, h, w) is the one-pass
    normalisation of row R's image at (h, w), with the scale and shift columns read at row R. -/
def rowsOnePass (a0 : S4096x64x64.Idx → EReal) (a1 a2 : S4096x1.Idx → EReal) : S4096x64x64.Idx → EReal :=
  fun i => AdainRow.onePass (fun q : Fin 64 × Fin 64 => a0 (ix3 (i 0 : Fin 4096) q.1 q.2))
    (a1 (ix2 (i 0 : Fin 4096) (0 : Fin 1))) (a2 (ix2 (i 0 : Fin 4096) (0 : Fin 1)))
    (Ideal.ofBits .f32 0x39800000#32) (Ideal.ofBits .f32 0x3727C5AC#32) ((i 1 : Fin 64), (i 2 : Fin 64))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: every window's block index on the row axis is the point, and
    zero on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Row p of the block at point t is row 64·t + p of the array. -/
def row (t : Fin cfg0.N) (p : Fin 64) : Fin 4096 := ⟨64 * t.val + p.val, by have := t.isLt; have : t.val < 64 := this; omega⟩

theorem emb0 (t : Fin cfg0.N) (p h w : Fin 64) :
    ((cfg0.win 0).blk t).view.emb (ix3 p h w) = ix3 (row t p) h w := by
  obtain ⟨e0, e1, e2, -⟩ := idx_facts t
  funext a; apply Fin.ext
  match a with
  | ⟨0, _⟩ => show win0_0.index t (0 : Fin 3) * 64 + 1 * p.val = 64 * t.val + p.val; omega
  | ⟨1, _⟩ => show win0_0.index t (1 : Fin 3) * 64 + 1 * h.val = h.val; omega
  | ⟨2, _⟩ => show win0_0.index t (2 : Fin 3) * 64 + 1 * w.val = w.val; omega

theorem emb1 (t : Fin cfg0.N) (p : Fin 64) (z : Fin 1) :
    ((cfg0.win 1).blk t).view.emb (ix2 p z) = ix2 (row t p) z := by
  obtain ⟨-, -, -, e0, e1, -⟩ := idx_facts t
  funext a; apply Fin.ext
  match a with
  | ⟨0, _⟩ => show win0_1.index t (0 : Fin 2) * 64 + 1 * p.val = 64 * t.val + p.val; omega
  | ⟨1, _⟩ => show win0_1.index t (1 : Fin 2) * 1 + 1 * z.val = z.val; omega

theorem emb2 (t : Fin cfg0.N) (p : Fin 64) (z : Fin 1) :
    ((cfg0.win 2).blk t).view.emb (ix2 p z) = ix2 (row t p) z := by
  obtain ⟨-, -, -, -, -, e0, e1, -⟩ := idx_facts t
  funext a; apply Fin.ext
  match a with
  | ⟨0, _⟩ => show win0_2.index t (0 : Fin 2) * 64 + 1 * p.val = 64 * t.val + p.val; omega
  | ⟨1, _⟩ => show win0_2.index t (1 : Fin 2) * 1 + 1 * z.val = z.val; omega

theorem emb3 (t : Fin cfg0.N) (p h w : Fin 64) :
    ((cfg0.win 3).blk t).view.emb (ix3 p h w) = ix3 (row t p) h w := by
  obtain ⟨-, -, -, -, -, -, -, e0, e1, e2⟩ := idx_facts t
  funext a; apply Fin.ext
  match a with
  | ⟨0, _⟩ => show win0_3.index t (0 : Fin 3) * 64 + 1 * p.val = 64 * t.val + p.val; omega
  | ⟨1, _⟩ => show win0_3.index t (1 : Fin 3) * 64 + 1 * h.val = h.val; omega
  | ⟨2, _⟩ => show win0_3.index t (2 : Fin 3) * 64 + 1 * w.val = w.val; omega

/-- The blocks the body is handed at point t, read at an index: the arrays' entries at the block's rows. -/
theorem iblk0_apply (c : Dev nD) (t : Fin cfg0.N) (p h w : Fin 64) :
    iblk m c 0 t (ix3 p h w) = V m c main_v0 (ix3 (row t p) h w) := by
  show V m c main_v0 (((cfg0.win 0).blk t).view.emb (ix3 p h w)) = V m c main_v0 (ix3 (row t p) h w)
  exact congrArg (V m c main_v0) (emb0 t p h w)
theorem iblk1_apply (c : Dev nD) (t : Fin cfg0.N) (p : Fin 64) (z : Fin 1) :
    iblk m c 1 t (ix2 p z) = V m c main_v1 (ix2 (row t p) z) := by
  show V m c main_v1 (((cfg0.win 1).blk t).view.emb (ix2 p z)) = V m c main_v1 (ix2 (row t p) z)
  exact congrArg (V m c main_v1) (emb1 t p z)
theorem iblk2_apply (c : Dev nD) (t : Fin cfg0.N) (p : Fin 64) (z : Fin 1) :
    iblk m c 2 t (ix2 p z) = V m c main_v2 (ix2 (row t p) z) := by
  show V m c main_v2 (((cfg0.win 2).blk t).view.emb (ix2 p z)) = V m c main_v2 (ix2 (row t p) z)
  exact congrArg (V m c main_v2) (emb2 t p z)

/-- WHAT POINT t WRITES BACK is block t of the whole-array function of the arrays as the call finds them. -/
theorem flushed_eq (c : Dev nD) (t : Fin cfg0.N) :
    (dats m 0 c).flushed 3 t
      = ((cfg0.win 3).blk t).view.read (Elt Ideal) (rowsOnePass (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S64x64x64) hz3, View.ld_unit_zero (S := S64x1) hz2]
  funext j
  obtain ⟨p, h, w, rfl⟩ : ∃ (p h w : Fin 64), j = ix3 p h w := ⟨j 0, j 1, j 2, eq_ix3 j⟩
  show k0_pay1 (F := Ideal) (iblk m c 0 t) (iblk m c 1 t) (iblk m c 2 t) (ix3 p h w)
    = rowsOnePass (V m c main_v0) (V m c main_v1) (V m c main_v2) (((cfg0.win 3).blk t).view.emb (ix3 p h w))
  rw [pay_apply, emb3]
  unfold rowsOnePass
  have hf : (fun q : Fin 64 × Fin 64 => iblk m c 0 t (ix3 p q.1 q.2))
      = fun q : Fin 64 × Fin 64 => V m c main_v0 (ix3 (row t p) q.1 q.2) := funext fun q => iblk0_apply m c t p q.1 q.2
  rw [hf, iblk1_apply, iblk2_apply]

/-- An index of the array is in point t's block iff each coordinate is in the block's range on its axis. -/
theorem mem_blk (t : Fin cfg0.N) (i : S4096x64x64.Idx) :
    i ∈ ((cfg0.win 3).blk t).view.set ↔ ∀ a : Fin 3, win0_3.index t a * S64x64x64.size a ≤ (i a).val
      ∧ (i a).val < win0_3.index t a * S64x64x64.size a + S64x64x64.size a := by
  show i ∈ ((View.whole main_v3).slice (win0_3.rect t)).set ↔ _
  rw [View.set_slice_whole, Rect.mem_set_unit]
  exact Iff.rfl

/-- Every entry of the array is written back by some point: row R by point R / 64. -/
theorem cover (i : S4096x64x64.Idx) :
    ∃ t : Fin cfg0.N, (cfg0.win 3).flush t = true ∧ i ∈ ((cfg0.win 3).blk t).view.set := by
  have hi0 : (i 0).val < 4096 := (i 0).isLt
  have hi1 : (i 1).val < 64 := (i 1).isLt
  have hi2 : (i 2).val < 64 := (i 2).isLt
  have hN : cfg0.N = 64 := rfl
  obtain ⟨t, ht⟩ : ∃ t : Fin cfg0.N, t.val = (i 0).val / 64 := ⟨⟨(i 0).val / 64, by rw [hN]; omega⟩, rfl⟩
  obtain ⟨-, -, -, -, -, -, -, e0, e1, e2⟩ := idx_facts t
  refine ⟨t, flush0_3 t, ?_⟩
  rw [mem_blk]
  intro a
  match a with
  | ⟨0, _⟩ =>
    show win0_3.index t (0 : Fin 3) * 64 ≤ (i 0).val ∧ (i 0).val < win0_3.index t (0 : Fin 3) * 64 + 64
    rw [e0, ht]; omega
  | ⟨1, _⟩ =>
    show win0_3.index t (1 : Fin 3) * 64 ≤ (i 1).val ∧ (i 1).val < win0_3.index t (1 : Fin 3) * 64 + 64
    rw [e1]; omega
  | ⟨2, _⟩ =>
    show win0_3.index t (2 : Fin 3) * 64 ≤ (i 2).val ∧ (i 2).val < win0_3.index t (2 : Fin 3) * 64 + 64
    rw [e2]; omega

/-- THE RESULT ARRAY of the call after the run. -/
theorem final3 (c : Dev nD) :
    (dats m 0 c).arrAt 3 cfg0.N = rowsOnePass (V m c main_v0) (V m c main_v1) (V m c main_v2) :=
  (dats m 0 c).arrAt_eq_of_cover 3 _ (fun t _ => flushed_eq m c t) cover

/-- The three arrays as the call finds them: the arguments reshaped. -/
theorem V_v0 (c : Dev nD) : (V m c main_v0 : S4096x64x64.Idx → EReal)
    = shapeCast S4096x64x64 (m ((c : Thread nD τ).loc main_arg0)) shapeCasts_S8x512x64x64_S4096x64x64 := by
  show StableHlo.after hostOps0 (fun b => m (c, b)) (Proc.devRef .tc main_v0) = _
  after_results; rfl
theorem V_v1 (c : Dev nD) : (V m c main_v1 : S4096x1.Idx → EReal)
    = shapeCast S4096x1 (m ((c : Thread nD τ).loc main_arg1)) shapeCasts_S4096_S4096x1 := by
  show StableHlo.after hostOps0 (fun b => m (c, b)) (Proc.devRef .tc main_v1) = _
  after_results; rfl
theorem V_v2 (c : Dev nD) : (V m c main_v2 : S4096x1.Idx → EReal)
    = shapeCast S4096x1 (m ((c : Thread nD τ).loc main_arg2)) shapeCasts_S4096_S4096x1 := by
  show StableHlo.after hostOps0 (fun b => m (c, b)) (Proc.devRef .tc main_v2) = _
  after_results; rfl

/-- The program's result as a function of its three arguments. -/
def resK (a0 : S8x512x64x64.Idx → EReal) (a1 a2 : S4096.Idx → EReal) : S8x512x64x64.Idx → EReal :=
  shapeCast S8x512x64x64
    (rowsOnePass (shapeCast S4096x64x64 a0 shapeCasts_S8x512x64x64_S4096x64x64) (shapeCast S4096x1 a1 shapeCasts_S4096_S4096x1)
      (shapeCast S4096x1 a2 shapeCasts_S4096_S4096x1))
    shapeCasts_S4096x64x64_S8x512x64x64

/-- The line after the call reshapes the call's result array. -/
theorem tail_v4 (c : Dev nD) :
    Pipeline.afterTail₀ cfgs (dats m) 0 (V0 m) [hostOps1] c main_v4
      = resK (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N := Pipeline.withArrays_arr spec0 launch0.win.arr_inj c _ _ 3
  rw [hw, final3, V_v0, V_v1, V_v2]
  rfl

/-- THE KERNEL'S RUN, with its result named: every weakly fair execution terminates without a fault, the result
    buffer holds `resK` of the three arguments, and the arguments are unchanged. -/
theorem run_k : θ_run defs (onTc (τ := τ) (main (F := Ideal))) ⟨m, fun _ => 0, ρ⟩ (fun r => ∀ c : Dev nD,
      r.2.mem ((c.tc : Thread nD τ).loc main_v4)
        = resK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KerValue

end
-- ==== Proof.RefData.lean ====
/-
  The idealized reference's pallas_call, seen from its grid: 4096 rows of 4096 entries in 15 blocks of 288 rows,
  the last block overhanging the array by 224 rows; the per-row scale and shift vectors padded to 4320 rows and
  staged whole, once. This module names what the body leaves in the output window's staging buffer as a function
  of what its three input buffers hold, and the proof data of the pipeline over it.

  The body normalises each row of its block by that row's own mean and variance and applies that row's scale
  and shift, read from the padded vectors at the block's first row plus the row's position. On the rows of an
  overhanging block that lie past the array's end the input buffer holds words nothing names; what the body
  computes from them is never written back.
-/
import proofs.«136191_g2000609365309440_pallasbulk_1167_4_alg».proof.Proof.Gen.ReferenceIdeal.Skeleton
import proofs.«136191_g2000609365309440_pallasbulk_1167_4_alg».proof.Proof.Gen.ReferenceIdeal.Frame

set_option maxRecDepth 16384

noncomputable section

namespace Cert.ReferenceIdeal.RefFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The whole block of rows: the rectangle through which the body loads its input block and stores its result. -/
abbrev rX : Rect S288x4096 := Rect.unit (s := S288x4096) ![0, 0] S288x4096.size inb_S288x4096_S288x4096_0_0
/-- The 288 rows of a padded per-row vector that belong to the block at grid coordinates `i`: rows
    `288 * i` to `288 * i + 287`. -/
abbrev rP (i : grid0.Coords) : Rect S4320x1 := Rect.unit (s := S4320x1) (k0_off1 i) S288x1.size (k0_off1_inb i)

/-- What the body at grid coordinates `i` leaves in the output buffer when its input buffer holds `x0` and the
    padded scale and shift buffers hold `x1` and `x2`: the payload of its one store, which covers the buffer. -/
def leaves (i : grid0.Coords) (x0 : Vec F S288x4096 .f32) (x1 x2 : Vec F S4320x1 .f32) : Vec F S288x4096 .f32 :=
  k0_pay1 x0 (View.ld x1 (rP i)) (View.ld x2 (rP i))

variable (m : (ℓ : Loc nD τ sig) → Buf (Elt F) ℓ)

/-- The input block at point `t`, filled out past the array's end with zeros: the rows inside the array are the
    array's, the others a word the proof picks and nothing reads. -/
def xfull (c : Dev nD) (t : Fin cfg0.N) : S288x4096.Idx → Elt F .f32 :=
  win0_0.fill (grid0.coords t) (fun _ => Scalar.ofBits .f32 0#32) (iblk m c 0 t)

/-- The proof data of the pipeline on core `c`: the arrays as the region finds them; after the body at point `t`
    the input buffer at its block (filled out), the two vector buffers at the whole padded vectors, the output
    buffer at what the body leaves from those. Of the first and the last only the rows inside the array are
    ever stated to anyone. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => leaves (grid0.coords t) (xfull m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = leaves (grid0.coords t) (xfull m c t) (iblk m c 1 t) (iblk m c 2 t) := by dsimp only [dats]

/-- Each output row depends on its own input row only: if two input buffers agree on the rows of the block at
    point `t` that lie inside the array, so do the output buffers the body leaves from them. -/
def RowLocal : Prop :=
  ∀ (t : Fin cfg0.N) (X X' : Vec F S288x4096 .f32) (x1 x2 : Vec F S4320x1 .f32),
    win0_0.cut (grid0.coords t) X = win0_0.cut (grid0.coords t) X' →
    win0_3.cut (grid0.coords t) (leaves (grid0.coords t) X x1 x2) = win0_3.cut (grid0.coords t) (leaves (grid0.coords t) X' x1 x2)

end Cert.ReferenceIdeal.RefFrame

end
-- ==== Proof.RefBody.lean ====
/-
  The body of the idealized reference's pallas_call and the pipeline's run around it: the body's triple on whole
  staging memrefs, what the body finds in each window's buffer at a point, the body obligation over the clipped
  windows, the run of @main and the frame.
-/
import proofs.«136191_g2000609365309440_pallasbulk_1167_4_alg».proof.Proof.RefData
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.RefFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

/-- The zero offsets of a whole-buffer access, as the constant function. -/
theorem off00_eq_zero : (![0, 0] : Fin 2 → Nat) = fun _ => 0 := funext fun a => by fin_cases a <;> rfl

/-- The one store covers the output buffer. -/
theorem cover_out (p0 : Vec F S288x4096 .f32) (y : S288x4096.Idx) :
    ∃ pc ∈ ([⟨rX, p0⟩] : List (View.Piece (Elt F) S288x4096 .f32)), y ∈ pc.1.set :=
  ⟨_, List.mem_singleton_self _, View.mem_set_unit_zero off00_eq_zero inb_S288x4096_S288x4096_0_0 y⟩

set_option maxHeartbeats 1000000 in
/-- The body on whole staging memrefs, the inputs' at read contents `x0`, `x1`, `x2` and the output's at anything, runs
    to the continuation holding the inputs' as they were and the output's at `leaves i x0 x1 x2`: it loads the whole
    input block and the 288 rows of each padded vector that start at the block's first row, and its one store, of
    the payload computed from those, covers the output buffer. -/
theorem sound_kernel (c : Dev nD) (E : Set ℕ) (i : grid0.Coords) (arg1 : Memref sig .tc .vmem S288x4096 .f32) (harg1 : arg1.IsWhole) (arg2 : Memref sig .tc .vmem S4320x1 .f32) (harg2 : arg2.IsWhole) (arg3 : Memref sig .tc .vmem S4320x1 .f32) (harg3 : arg3.IsWhole) (arg4 : Memref sig .tc .vmem S288x4096 .f32) (harg4 : arg4.IsWhole)
    (x0 : Vec F S288x4096 .f32) (x1 : Vec F S4320x1 .f32) (x2 : Vec F S4320x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (leaves i x0 x1 x2)) -∗ K ⟨⟩))
      ⊢ wp frame (wpE (defs₀ (F := F)) Variants.none c none) E (cc0__adain_fused_kernel i arg1 harg1 arg2 harg2 arg3 harg3 arg4 harg4) K := by
  simp only [cc0__adain_fused_kernel_eq_skeleton]; unfold cc0__adain_fused_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover_out _)).trans ?_
  rw [View.canon_unit_zero off00_eq_zero]
  unfold leaves
  rw [View.readAt_eq_ld, View.readAt_eq_ld, View.readAt_eq_ld, View.ld_unit_zero off00_eq_zero]

variable (m : (ℓ : Loc nD τ sig) → Buf (Elt F) ℓ) (ρ : Dev nD → PrngReg)

/-! ## What the body finds in each window's buffer -/

/-- The input window is fetched at every point: its buffer holds the block on the rows inside the array and, past
    the array's end, whatever the buffer held (`d`). -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
/-- The padded vectors, staged whole at the first point and left in place by the body, are there at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The output window is written back at every point, so at every point its buffer holds nothing named. -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation -/

/-- The library's body obligation over the clipped windows, from the body's triple: the input buffer arrives holding
    its block filled out past the array's end with some `d0`, and is handed back so; the output buffer is handed back
    holding what the body computed from THAT buffer, which on the rows inside the array is what it computes from the
    block filled out with zeros, each output row depending on its own input row only (`hloc`). -/
theorem body_obligation (hloc : RowLocal (F := F)) (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win0_0.cut (grid0.coords t) (xfull m c t) = iblk m c 0 t := win0_0.cut_fill _ _ _
  have hcut : win0_0.cut (grid0.coords t) (win0_0.fill (grid0.coords t) d0 (iblk m c 0 t))
      = win0_0.cut (grid0.coords t) (xfull m c t) := (win0_0.cut_fill _ _ _).trans hx.symm
  isplitl [H0]
  · iexists d0
    rw [after0_0, hx]; iexact H0
  isplitl [H1]
  · rw [after0_1]; iexact H1
  isplitl [H2]
  · rw [after0_2]; iexact H2
  · iexists leaves (grid0.coords t) (win0_0.fill (grid0.coords t) d0 (iblk m c 0 t)) (iblk m c 1 t) (iblk m c 2 t)
    rw [after0_3, win0_3.fill_congr_cut _ (hloc t _ _ _ _ hcut)]; iexact H3

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the lines after the region leave it. -/
theorem run_main (hloc : RowLocal (F := F)) : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame (hloc : RowLocal (F := F)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hloc)

end Cert.ReferenceIdeal.RefFrame

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.RefPayload.lean ====
/-
  The idealized reference's body at an index. The body holds a block of 288 rows of 4096 entries; entry (r, j) of
  what it stores is the two-pass instance normalisation of row r at j, with the scale and shift it loads for
  that row: the lane sums are sums over the row, the per-row quantities are kept as [288, 1] columns and spread
  back over the block. So an output row is a function of its own input row only.
-/
import proofs.«136191_g2000609365309440_pallasbulk_1167_4_alg».proof.Proof.RefData
import proofs.«136191_g2000609365309440_pallasbulk_1167_4_alg».proof.Proof.LibAdainLaw
import proofs.«136191_g2000609365309440_pallasbulk_1167_4_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.RefFrame
open Idealize.ShloMosaic Idealize.ShloMosaic.ValueIdx

theorem rsqrt_apply {s : Shape} (a : FVec Ideal s .f32) (i : s.Idx) : rsqrt a i = Ideal.rsqrt (a i) := rfl

/-- Entry (r, j) of what the body stores, from the block `x0` and the 288 loaded rows `v19`, `v22` of the scale and
    shift columns: the two-pass normalisation of row r. -/
theorem pay_apply (x0 : Vec Ideal S288x4096 .f32) (v19 v22 : Vec Ideal S288x1 .f32) (r : Fin 288) (j : Fin 4096) :
    k0_pay1 (F := Ideal) x0 v19 v22 (ix2 r j)
      = AdainRow.twoPass (fun k : Fin 4096 => x0 (ix2 r k)) (v19 (ix2 r (0 : Fin 1))) (v22 (ix2 r (0 : Fin 1)))
          (Ideal.ofBits .f32 0x39800000#32) (Ideal.ofBits .f32 0x3727C5AC#32) j := by
  have hs : ∀ src : FVec Ideal S288x4096 .f32,
      multiReduction (F := Ideal) .add [1] S288 src 0x00000000#32 reduces_S288x4096_S288 (.inl rfl) rfl (ix1 r)
        = ∑ k : Fin 4096, src (ix2 r k) := fun src => Keepdims.laneSum_apply src _ _ _ r
  unfold k0_pay1 AdainRow.twoPass
  simp only [shapeCast_self]
  simp only [addf_apply, mulf_apply, subf_apply, rsqrt_apply, broadcast_apply,
    Keepdims.broadcastTo_a1_ab_apply, Keepdims.shapeCast_a_a1_apply, hs,
    Scalar.ofBits, Ideal.ofBits_def]

/-- The same of what the body leaves in the output buffer, the scale and shift read from the padded columns at
    the row the block's rectangle names. -/
theorem leaves_apply (i : grid0.Coords) (X : Vec Ideal S288x4096 .f32) (x1 x2 : Vec Ideal S4320x1 .f32) (r : Fin 288) (j : Fin 4096) :
    leaves (F := Ideal) i X x1 x2 (ix2 r j)
      = AdainRow.twoPass (fun k : Fin 4096 => X (ix2 r k)) (x1 ((rP i).idx (ix2 r (0 : Fin 1)))) (x2 ((rP i).idx (ix2 r (0 : Fin 1))))
          (Ideal.ofBits .f32 0x39800000#32) (Ideal.ofBits .f32 0x3727C5AC#32) j := by
  unfold leaves
  exact pay_apply X _ _ r j

end Cert.ReferenceIdeal.RefValue

end
-- ==== Proof.RefLocal.lean ====
/-
  An output row of the reference's body is a function of its own input row: two input buffers that agree on the
  rows of a block that lie inside the array leave output buffers that agree on those rows. (The rows past the
  array's end of an overhanging block hold words nothing names, and nothing computed from them is written back.)
-/
import proofs.«136191_g2000609365309440_pallasbulk_1167_4_alg».proof.Proof.RefPayload

set_option maxRecDepth 16384

noncomputable section

namespace Cert.ReferenceIdeal.RefValue

open Cert.ReferenceIdeal Cert.ReferenceIdeal.Gen Cert.ReferenceIdeal.RefFrame
open Idealize.ShloMosaic Idealize.ShloMosaic.ValueIdx
open Idealize.ShloMosaic.Pipeline (Window)

/-- Two contents of a window's block with the same part inside the array agree at every index of that part. -/
theorem eq_of_cut_eq {sig : RefSig} {G : Pipeline.Grid} (w : Window sig G) {α : Type} (i : G.Coords)
    {X X' : w.block.Idx → α} (h : w.cut i X = w.cut i X') {j : w.block.Idx} (hj : w.moved i j = true) : X j = X' j := by
  have e1 := congrFun (w.fill_cut i X) j
  have e2 := congrFun (w.fill_cut i X') j
  unfold Window.fill at e1 e2
  rw [dif_pos hj] at e1 e2
  rw [← e1, ← e2, h]

/-- Conversely, contents that agree at every index of the part inside the array have the same such part. -/
theorem cut_eq_of_forall {sig : RefSig} {G : Pipeline.Grid} (w : Window sig G) {α : Type} (i : G.Coords)
    {X X' : w.block.Idx → α} (h : ∀ j, w.moved i j = true → X j = X' j) : w.cut i X = w.cut i X' :=
  funext fun y => h _ (w.moved_xinj i y)

/-- The input and the output window are cut alike on the row axis, and not at all along the rows. -/
theorem xsize_facts : ∀ t : Fin cfg0.N,
    win0_0.xsize (grid0.coords t) (0 : Fin 2) = win0_3.xsize (grid0.coords t) (0 : Fin 2)
    ∧ win0_0.xsize (grid0.coords t) (1 : Fin 2) = 4096 ∧ win0_3.xsize (grid0.coords t) (1 : Fin 2) = 4096 :=
  (by decide +kernel : ∀ t : Fin grid0.N, _)

theorem rowLocal : RowLocal (F := Ideal) := by
  intro t X X' x1 x2 hcut
  obtain ⟨e0, e1, e3⟩ := xsize_facts t
  refine cut_eq_of_forall win0_3 _ fun J hJ => ?_
  obtain ⟨r, j, rfl⟩ : ∃ (r : Fin 288) (j : Fin 4096), J = ix2 r j := ⟨J 0, J 1, eq_ix2 J⟩
  have hr : r.val < win0_3.xsize (grid0.coords t) (0 : Fin 2) := (win0_3.moved_iff _ _).mp hJ 0
  rw [leaves_apply, leaves_apply]
  have hrow : (fun k : Fin 4096 => X (ix2 r k)) = fun k : Fin 4096 => X' (ix2 r k) := by
    funext k
    refine eq_of_cut_eq win0_0 _ hcut ((win0_0.moved_iff _ _).mpr fun a => ?_)
    match a with
    | ⟨0, _⟩ => show r.val < win0_0.xsize (grid0.coords t) (0 : Fin 2); rw [e0]; exact hr
    | ⟨1, _⟩ => show k.val < win0_0.xsize (grid0.coords t) (1 : Fin 2); rw [e1]; exact k.isLt
  rw [hrow]

end Cert.ReferenceIdeal.RefValue

end
-- ==== Proof.RefRes.lean ====
/-
  The idealized reference's result as a function of its arguments, and the three arrays as its pallas_call finds
  them. Around the call the reference reshapes x [8, 512, 64, 64] to rows [4096, 4096] and the scale and shift
  [4096] to columns [4096, 1], pads each column with 224 zero rows to [4320, 1] (a whole number of 288-row blocks),
  and reshapes the call's [4096, 4096] result back. Entry (R, j) of the call's result is the two-pass normalisation
  of row R at j with the padded columns read at row R.
-/
import proofs.«136191_g2000609365309440_pallasbulk_1167_4_alg».proof.Proof.RefData
import proofs.«136191_g2000609365309440_pallasbulk_1167_4_alg».proof.Proof.LibAdainLaw
import Idealize.ShloMosaic.Lib.Pipeline.Value
import Idealize.ShloMosaic.Lib.StableHlo.Run
import Idealize.ShloMosaic.Lib.ValueIdx

set_option maxRecDepth 16384

noncomputable section

namespace Cert.ReferenceIdeal.RefValue

open Cert.ReferenceIdeal Cert.ReferenceIdeal.Gen Cert.ReferenceIdeal.RefFrame
open Idealize.ShloMosaic Idealize.ShloMosaic.TcCoe Idealize.ShloMosaic.ValueIdx
open Idealize.SL Idealize.SL.Sem

/-- Row R < 4096 of a padded column. -/
def prow (R : Fin 4096) : Fin 4320 := ⟨R.val, by have := R.isLt; omega⟩

/-- The call's result array as one function of the three arrays it reads. -/
def rowsTwoPass (a0 : S4096x4096.Idx → EReal) (a1 a2 : S4320x1.Idx → EReal) : S4096x4096.Idx → EReal :=
  fun i => AdainRow.twoPass (fun k : Fin 4096 => a0 (ix2 (i 0 : Fin 4096) k))
    (a1 (ix2 (prow (i 0)) (0 : Fin 1))) (a2 (ix2 (prow (i 0)) (0 : Fin 1)))
    (Ideal.ofBits .f32 0x39800000#32) (Ideal.ofBits .f32 0x3727C5AC#32) (i 1 : Fin 4096)

/-- A vector [4096] as a column [4096, 1] padded with 224 rows of the converted integer zero. -/
def padCol (a : S4096.Idx → EReal) : S4320x1.Idx → EReal :=
  pad S4320x1 ![0, 0] ![224, 0] ![0, 0] (shapeCast S4096x1 a shapeCasts_S4096_S4096x1)
    (sitofp (F := Ideal) .f32 (constantI S_ 32 0#32)) pads_S4096x1_S4320x1_02240_000 h_S_

/-- The program's result as a function of its three arguments. -/
def resR (a0 : S8x512x64x64.Idx → EReal) (a1 a2 : S4096.Idx → EReal) : S8x512x64x64.Idx → EReal :=
  shapeCast S8x512x64x64
    (rowsTwoPass (shapeCast S4096x4096 a0 shapeCasts_S8x512x64x64_S4096x4096) (padCol a1) (padCol a2))
    shapeCasts_S4096x4096_S8x512x64x64

variable (m : (ℓ : Loc nD τ sig) → Buf (Elt Ideal) ℓ)

theorem V_v0 (c : Dev nD) : (V m c main_v0 : S4096x4096.Idx → EReal)
    = shapeCast S4096x4096 (m ((c : Thread nD τ).loc main_arg0)) shapeCasts_S8x512x64x64_S4096x4096 := by
  dsimp only [V, V0]
  simp only [hostOps0, hostOps0_1, hostOps0_2, hostOps0_3, List.flatten_cons, List.flatten_nil, List.append_nil, List.cons_append,
    List.nil_append]
  after_results; rfl
theorem V_v3 (c : Dev nD) : (V m c main_v3 : S4320x1.Idx → EReal) = padCol (m ((c : Thread nD τ).loc main_arg1)) := by
  dsimp only [V, V0]
  simp only [hostOps0, hostOps0_1, hostOps0_2, hostOps0_3, List.flatten_cons, List.flatten_nil, List.append_nil, List.cons_append,
    List.nil_append]
  after_results; rfl
theorem V_v4 (c : Dev nD) : (V m c main_v4 : S4320x1.Idx → EReal) = padCol (m ((c : Thread nD τ).loc main_arg2)) := by
  dsimp only [V, V0]
  simp only [hostOps0, hostOps0_1, hostOps0_2, hostOps0_3, List.flatten_cons, List.flatten_nil, List.append_nil, List.cons_append,
    List.nil_append]
  after_results; rfl

end Cert.ReferenceIdeal.RefValue

end
-- ==== Proof.RefFinal.lean ====
/-
  The idealized reference's result array. Its pallas_call runs over 15 grid points; point t holds rows 288·t … of
  the [4096, 4096] array — 288 of them, except the last point, whose block overhangs the array and holds the 64 rows
  that are left — and the whole padded scale and shift columns, of which the body reads rows 288·t …. It writes
  back, for each of its rows inside the array, the two-pass normalisation of that row. The parts of the blocks
  inside the array tile it, so after the run entry (R, j) of the result is the two-pass normalisation of row R at
  j with the padded columns read at row R; the line after the call reshapes it to [8, 512, 64, 64].
-/
import proofs.«136191_g2000609365309440_pallasbulk_1167_4_alg».proof.Proof.RefBody
import proofs.«136191_g2000609365309440_pallasbulk_1167_4_alg».proof.Proof.RefLocal
import proofs.«136191_g2000609365309440_pallasbulk_1167_4_alg».proof.Proof.RefRes
import Idealize.ShloMosaic.Lib.Pipeline.Value
import Idealize.ShloMosaic.Lib.StableHlo.Run
import Idealize.ShloMosaic.Lib.ValueIdx

set_option maxRecDepth 16384

noncomputable section

namespace Cert.ReferenceIdeal.RefValue

open Cert.ReferenceIdeal Cert.ReferenceIdeal.Gen Cert.ReferenceIdeal.RefFrame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps and cuts, decided over the grid: the row windows' block index is the point on the row
    axis and zero along the rows; the column windows' blocks are the whole padded columns; the body's column
    offset is 288 times the point; the part of point t's block inside the array is rows 288·t up to the smaller
    of 288·t + 288 and 4096. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ k0_off1 (grid0.coords t) (0 : Fin 2) = 288 * t.val ∧ k0_off1 (grid0.coords t) (1 : Fin 2) = 0
    ∧ 288 * t.val + win0_3.xsize (grid0.coords t) (0 : Fin 2) = min (288 * t.val + 288) 4096 :=
  (by decide +kernel : ∀ t : Fin grid0.N, _)

/-- A filled-out block at an index of the part inside the array is the block there. -/
theorem fill_apply_moved {sig : RefSig} {G : Pipeline.Grid} (w : Window sig G) {α : Type} (i : G.Coords)
    (d : w.block.Idx → α) (g : (w.xblock i).Idx → α) (j : w.block.Idx) (h : w.moved i j = true) :
    w.fill i d g j = g (fun a => ⟨(j a).val, (w.moved_iff i j).mp h a⟩) := by
  unfold Window.fill; rw [dif_pos h]

/-- WHAT POINT t WRITES BACK is the part inside the array of block t of the whole-array function of the arrays
    as the call finds them. -/
theorem flushed_eq (c : Dev nD) (t : Fin cfg0.N) :
    (dats m 0 c).flushed 3 t
      = ((cfg0.win 3).blk t).view.read (Elt Ideal) (rowsTwoPass (V m c main_v0) (V m c main_v3) (V m c main_v4)) := by
  show (cfg0.win 3).cut (grid0.coords t) ((dats m 0 c).after 3 t) = _
  rw [after0_3]
  obtain ⟨i00, i01, i10, i11, i20, i21, i30, i31, o0, o1, hx⟩ := idx_facts t
  obtain ⟨e0, e1, e3⟩ := xsize_facts t
  funext y
  obtain ⟨r, j, hJ⟩ : ∃ (r : Fin 288) (j : Fin 4096), win0_3.xinj (grid0.coords t) y = ix2 r j := ⟨_, _, eq_ix2 _⟩
  have hmv : win0_3.moved (grid0.coords t) (ix2 r j) = true := hJ ▸ win0_3.moved_xinj _ y
  have hr : r.val < win0_3.xsize (grid0.coords t) (0 : Fin 2) := (win0_3.moved_iff _ _).mp hmv 0
  have hy0 : (y 0).val = r.val := congrArg (fun z => (z (0 : Fin 2)).val) hJ
  have hy1 : (y 1).val = j.val := congrArg (fun z => (z (1 : Fin 2)).val) hJ
  have hR : 288 * t.val + r.val < 4096 := by omega
  -- the array's row and the block's position in the array
  have hemb : ((cfg0.win 3).blk t).view.emb y = ix2 (⟨288 * t.val + r.val, hR⟩ : Fin 4096) j := by
    funext a; apply Fin.ext
    match a with
    | ⟨0, _⟩ => show win0_3.index t (0 : Fin 2) * 288 + 1 * (y 0).val = 288 * t.val + r.val; omega
    | ⟨1, _⟩ => show win0_3.index t (1 : Fin 2) * 4096 + 1 * (y 1).val = j.val; omega
  show leaves (grid0.coords t) (xfull m c t) (iblk m c 1 t) (iblk m c 2 t) (win0_3.xinj (grid0.coords t) y)
    = rowsTwoPass (V m c main_v0) (V m c main_v3) (V m c main_v4) (((cfg0.win 3).blk t).view.emb y)
  rw [hJ, hemb, leaves_apply]
  unfold rowsTwoPass
  -- the input row
  have hrow : (fun k : Fin 4096 => xfull m c t (ix2 r k))
      = fun k : Fin 4096 => V m c main_v0 (ix2 (⟨288 * t.val + r.val, hR⟩ : Fin 4096) k) := by
    funext k
    have hk : win0_0.moved (grid0.coords t) (ix2 r k) = true := (win0_0.moved_iff _ _).mpr fun a => by
      match a with
      | ⟨0, _⟩ => show r.val < win0_0.xsize (grid0.coords t) (0 : Fin 2); rw [e0]; exact hr
      | ⟨1, _⟩ => show k.val < win0_0.xsize (grid0.coords t) (1 : Fin 2); rw [e1]; exact k.isLt
    unfold xfull
    rw [fill_apply_moved win0_0 _ _ _ _ hk]
    show V m c main_v0 (((cfg0.win 0).blk t).view.emb _) = V m c main_v0 _
    refine congrArg (V m c main_v0) ?_
    funext a; apply Fin.ext
    match a with
    | ⟨0, _⟩ => show win0_0.index t (0 : Fin 2) * 288 + 1 * r.val = 288 * t.val + r.val; omega
    | ⟨1, _⟩ => show win0_0.index t (1 : Fin 2) * 4096 + 1 * k.val = k.val; omega
  -- the scale and shift rows
  have hidx : (rP (grid0.coords t)).idx (ix2 r (0 : Fin 1)) = ix2 (prow (⟨288 * t.val + r.val, hR⟩ : Fin 4096)) (0 : Fin 1) := by
    funext a; apply Fin.ext
    match a with
    | ⟨0, _⟩ => show k0_off1 (grid0.coords t) (0 : Fin 2) + 1 * r.val = 288 * t.val + r.val; omega
    | ⟨1, _⟩ => show k0_off1 (grid0.coords t) (1 : Fin 2) + 1 * 0 = 0; omega
  have h1 : ∀ z : S4320x1.Idx, iblk m c 1 t z = V m c main_v3 z := fun z => by
    show V m c main_v3 (((cfg0.win 1).blk t).view.emb z) = V m c main_v3 z
    refine congrArg (V m c main_v3) ?_
    funext a; apply Fin.ext
    match a with
    | ⟨0, _⟩ => show win0_1.index t (0 : Fin 2) * 4320 + 1 * (z 0).val = (z 0).val; omega
    | ⟨1, _⟩ => show win0_1.index t (1 : Fin 2) * 1 + 1 * (z 1).val = (z 1).val; omega
  have h2 : ∀ z : S4320x1.Idx, iblk m c 2 t z = V m c main_v4 z := fun z => by
    show V m c main_v4 (((cfg0.win 2).blk t).view.emb z) = V m c main_v4 z
    refine congrArg (V m c main_v4) ?_
    funext a; apply Fin.ext
    match a with
    | ⟨0, _⟩ => show win0_2.index t (0 : Fin 2) * 4320 + 1 * (z 0).val = (z 0).val; omega
    | ⟨1, _⟩ => show win0_2.index t (1 : Fin 2) * 1 + 1 * (z 1).val = (z 1).val; omega
  rw [hrow, hidx, h1, h2]

/-- An index of the array is in point t's block iff each coordinate is in the range of the block's part inside the
    array on its axis. -/
theorem mem_blk (t : Fin cfg0.N) (i : S4096x4096.Idx) :
    i ∈ ((cfg0.win 3).blk t).view.set ↔ ∀ a : Fin 2, win0_3.index t a * S288x4096.size a ≤ (i a).val
      ∧ (i a).val < win0_3.index t a * S288x4096.size a + win0_3.xsize (grid0.coords t) a := by
  show i ∈ ((View.whole main_v5).slice (win0_3.rect t)).set ↔ _
  rw [View.set_slice_whole, Rect.mem_set_unit]
  exact Iff.rfl

/-- Every entry of the array is written back by some point: row R by point R / 288. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 15 := rfl
  obtain ⟨t, ht⟩ : ∃ t : Fin cfg0.N, t.val = (i 0).val / 288 := ⟨⟨(i 0).val / 288, by rw [hN]; omega⟩, rfl⟩
  obtain ⟨-, -, -, -, -, -, i30, i31, -, -, hx⟩ := idx_facts t
  obtain ⟨-, -, e3⟩ := xsize_facts t
  refine ⟨t, flush0_3 t, ?_⟩
  rw [mem_blk]
  intro a
  match a with
  | ⟨0, _⟩ =>
    show win0_3.index t (0 : Fin 2) * 288 ≤ (i 0).val ∧ (i 0).val < win0_3.index t (0 : Fin 2) * 288 + win0_3.xsize (grid0.coords t) (0 : Fin 2)
    rw [i30]; omega
  | ⟨1, _⟩ =>
    show win0_3.index t (1 : Fin 2) * 4096 ≤ (i 1).val ∧ (i 1).val < win0_3.index t (1 : Fin 2) * 4096 + win0_3.xsize (grid0.coords t) (1 : Fin 2)
    rw [i31, e3]; omega

/-- THE RESULT ARRAY of the call after the run. -/
theorem final5 (c : Dev nD) :
    (dats m 0 c).arrAt 3 cfg0.N = rowsTwoPass (V m c main_v0) (V m c main_v3) (V m c main_v4) :=
  (dats m 0 c).arrAt_eq_of_cover 3 _ (fun t _ => flushed_eq m c t) cover

/-- The line after the call reshapes the call's result array. -/
theorem tail_v6 (c : Dev nD) :
    Pipeline.afterTail₀ cfgs (dats m) 0 (V0 m) [hostOps1] c main_v6
      = resR (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = (dats m 0 c).arrAt 3 cfg0.N := Pipeline.withArrays_arr spec0 launch0.win.arr_inj c _ _ 3
  rw [hw, final5, V_v0, V_v3, V_v4]
  rfl

/-- THE REFERENCE'S RUN, with its result named: every weakly fair execution terminates without a fault, the result
    buffer holds `resR` of the three arguments, and the arguments are unchanged. -/
theorem run_r : θ_run defs (onTc (τ := τ) (main (F := Ideal))) ⟨m, fun _ => 0, ρ⟩ (fun r => ∀ c : Dev nD,
      r.2.mem ((c.tc : Thread nD τ).loc main_v6)
        = resR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_v6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ rowLocal)

end Cert.ReferenceIdeal.RefValue

end
-- ==== Proof.Finite.lean ====
/-
  The precondition that every input entry is finite, read at the extended reals: every entry of the three inputs
  is a real number. And two constants of the reference's body as the reals their words denote: the reciprocal of
  the row length and the positive number added to the variance.
-/
import proofs.«136191_g2000609365309440_pallasbulk_1167_4_alg».proof.Pre_finite_inputs
import proofs.«136191_g2000609365309440_pallasbulk_1167_4_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic

open Cert.Pre_finite_inputs

/-! ## Two constants of the body -/

/-- The word `0x39800000` is `2⁻¹²`: the reciprocal of the row length 4096. -/
theorem inv_len : Ideal.ofBits .f32 0x39800000#32 = (((1 : ℝ) / 4096 : ℝ) : EReal) := by
  simp [Ideal.ofBits, Ideal.ieee, -EReal.coe_mul]; norm_num

/-- The word `0x3727C5AC` is the positive real `10995116 · 2⁻⁴⁰`. -/
theorem eps_pos : ∃ e : ℝ, 0 < e ∧ Ideal.ofBits .f32 0x3727C5AC#32 = (e : EReal) :=
  ⟨(10995116 : ℝ) * (2 : ℝ) ^ (-40 : ℤ), by positivity, by simp [Ideal.ofBits, Ideal.ieee, -EReal.coe_mul]⟩

/-! ## Finite entries are reals -/

/-- The word `0x7F800000` is `+∞`. -/
theorem ofBits_inf : Ideal.ofBits .f32 0x7F800000#32 = ⊤ := by
  simp [Ideal.ofBits, Ideal.ieee]

/-- An extended real whose absolute value compares below `+∞` is a real: at `-∞` and at `+∞` the absolute
    value is `+∞`. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The result of a reduction over all axes has one index. -/
instance : Subsingleton S_.Idx := ⟨fun a b => funext fun d => d.elim0⟩

/-- The printed predicate holds only if every entry of the three inputs is a real: it is the conjunction, over the
    three inputs, of "every entry's absolute value is below `+∞`". -/
theorem real_of_finite [Cert.Pre_finite_inputs.Facts] (a0 : FVec Ideal Cert.Pre_finite_inputs.S8x512x64x64 .f32)
    (a1 a2 : FVec Ideal Cert.Pre_finite_inputs.S4096 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt (a0 i) (Host.reduce_andi_all _ _ _ _ _ h0' i)
  · exact real_of_abs_lt (a1 i) (Host.reduce_andi_all _ _ _ _ _ h1 i)
  · exact real_of_abs_lt (a2 i) (Host.reduce_andi_all _ _ _ _ _ h2 i)

end Cert.Finite

end
-- ==== Proof.LibMergeRows.lean ====
/-
  Reshapes that merge the two leading axes of an [a, b, c, d] array into one row axis, read at an index for any
  extents: [a, b, c, d] → [N, c, d] and back, and [a, b, c, d] → [N, M] (the two trailing axes merged too) and back,
  where row R = i·b + j and column J = k·d + l. A shape cast keeps the row-major position, so each is one
  arithmetic identity between two positions. Also the pairing of a row's column J with (k, l) as an equivalence,
  for re-indexing a sum over a merged row as a sum over pairs.
-/
import Mathlib
import Idealize.ShloMosaic.Lib.Pipeline.Value
import Idealize.ShloMosaic.Lib.ValueIdx

namespace MergeRows

open Idealize.ShloMosaic Idealize.ShloMosaic.ValueIdx

variable {α : Type}

/-- [a, b, c, d] seen as [N, c, d]: entry (R, k, l) with R = i·b + j is the operand's (i, j, k, l). -/
theorem merge3_apply {a b c d N : ℕ} (x : (⟨4, ![a, b, c, d]⟩ : Shape).Idx → α)
    (h : (⟨4, ![a, b, c, d]⟩ : Shape).ShapeCasts ⟨3, ![N, c, d]⟩) (i : Fin a) (j : Fin b) (k : Fin c) (l : Fin d)
    (R : Fin N) (hR : R.val = i.val * b + j.val) :
    shapeCast ⟨3, ![N, c, d]⟩ x h (ix3 R k l) = x (ix4 i j k l) :=
  shapeCast_apply x h _ _ (by
    rw [Shape.rowMajor_val_four, Shape.rowMajor_val_three]
    show ((i.val * b + j.val) * c + k.val) * d + l.val = (R.val * c + k.val) * d + l.val
    rw [hR])

/-- [N, c, d] seen as [a, b, c, d]: entry (i, j, k, l) is the operand's (R, k, l) with R = i·b + j. -/
theorem split3_apply {a b c d N : ℕ} (y : (⟨3, ![N, c, d]⟩ : Shape).Idx → α)
    (h : (⟨3, ![N, c, d]⟩ : Shape).ShapeCasts ⟨4, ![a, b, c, d]⟩) (i : Fin a) (j : Fin b) (k : Fin c) (l : Fin d)
    (R : Fin N) (hR : R.val = i.val * b + j.val) :
    shapeCast ⟨4, ![a, b, c, d]⟩ y h (ix4 i j k l) = y (ix3 R k l) :=
  shapeCast_apply y h _ _ (by
    rw [Shape.rowMajor_val_four, Shape.rowMajor_val_three]
    show (R.val * c + k.val) * d + l.val = ((i.val * b + j.val) * c + k.val) * d + l.val
    rw [hR])

/-- [a, b, c, d] seen as [N, M]: entry (R, J) with R = i·b + j and J = k·d + l is the operand's (i, j, k, l). -/
theorem merge2_apply {a b c d N M : ℕ} (x : (⟨4, ![a, b, c, d]⟩ : Shape).Idx → α)
    (h : (⟨4, ![a, b, c, d]⟩ : Shape).ShapeCasts ⟨2, ![N, M]⟩) (hM : M = c * d) (i : Fin a) (j : Fin b) (k : Fin c) (l : Fin d)
    (R : Fin N) (hR : R.val = i.val * b + j.val) (J : Fin M) (hJ : J.val = k.val * d + l.val) :
    shapeCast ⟨2, ![N, M]⟩ x h (ix2 R J) = x (ix4 i j k l) :=
  shapeCast_apply x h _ _ (by
    rw [Shape.rowMajor_val_four, Shape.rowMajor_val_two]
    show ((i.val * b + j.val) * c + k.val) * d + l.val = R.val * M + J.val
    rw [hR, hJ, hM]; ring)

/-- [N, M] seen as [a, b, c, d]: entry (i, j, k, l) is the operand's (R, J) with R = i·b + j and J = k·d + l. -/
theorem split2_apply {a b c d N M : ℕ} (y : (⟨2, ![N, M]⟩ : Shape).Idx → α)
    (h : (⟨2, ![N, M]⟩ : Shape).ShapeCasts ⟨4, ![a, b, c, d]⟩) (hM : M = c * d) (i : Fin a) (j : Fin b) (k : Fin c) (l : Fin d)
    (R : Fin N) (hR : R.val = i.val * b + j.val) (J : Fin M) (hJ : J.val = k.val * d + l.val) :
    shapeCast ⟨4, ![a, b, c, d]⟩ y h (ix4 i j k l) = y (ix2 R J) :=
  shapeCast_apply y h _ _ (by
    rw [Shape.rowMajor_val_four, Shape.rowMajor_val_two]
    show R.val * M + J.val = ((i.val * b + j.val) * c + k.val) * d + l.val
    rw [hR, hJ, hM]; ring)

/-- The columns J < M = c·d of a merged row, paired with (k, l): J = k·d + l. -/
def colEquiv {c d M : ℕ} (hM : c * d = M) : Fin c × Fin d ≃ Fin M :=
  finProdFinEquiv.trans (finCongr hM)

theorem colEquiv_val {c d M : ℕ} (hM : c * d = M) (q : Fin c × Fin d) :
    (colEquiv hM q).val = q.1.val * d + q.2.val := by
  show q.2.val + d * q.1.val = q.1.val * d + q.2.val
  rw [Nat.mul_comm, Nat.add_comm]

end MergeRows
-- ==== Proof.Bridge.lean ====
/-
  The two programs' results agree at real arguments. Entry (b, ch, h, w) of either result belongs to row
  R = b·512 + ch: the kernel normalises row R's 64×64 image in one pass and reads the result at (h, w); the
  reference normalises the same 4096 entries, laid out in a line with (k, l) at position k·64 + l, in two passes
  and reads the result at position h·64 + w, with the scale and shift read from the padded columns at row R, which
  lies before the padding. Renaming the positions of a row does not change its normalisation, the two arrangements
  agree at real entries, and the two constants are the reciprocal of the row's length and a positive number.
-/
import proofs.«136191_g2000609365309440_pallasbulk_1167_4_alg».proof.Proof.KerFinal
import proofs.«136191_g2000609365309440_pallasbulk_1167_4_alg».proof.Proof.RefRes
import proofs.«136191_g2000609365309440_pallasbulk_1167_4_alg».proof.Proof.LibAdainLaw
import proofs.«136191_g2000609365309440_pallasbulk_1167_4_alg».proof.Proof.LibMergeRows
import proofs.«136191_g2000609365309440_pallasbulk_1167_4_alg».proof.Proof.LibKeepdims
import proofs.«136191_g2000609365309440_pallasbulk_1167_4_alg».proof.Proof.Finite
import Idealize.ShloMosaic.Lib.KernelVsHost

noncomputable section

namespace Cert.Bridge

open Idealize.ShloMosaic Idealize.ShloMosaic.ValueIdx

/-- The 64·64 positions of an image, in a line: (k, l) at position k·64 + l. -/
def e64 : Fin 64 × Fin 64 ≃ Fin 4096 := MergeRows.colEquiv (c := 64) (d := 64) (M := 4096) (by norm_num)

theorem e64_val (q : Fin 64 × Fin 64) : (e64 q).val = q.1.val * 64 + q.2.val := MergeRows.colEquiv_val _ q

/-- A padded column read at a row before the padding is the vector there. -/
theorem padCol_apply (a : FVec Ideal ⟨1, ![4096]⟩ .f32) (R : Fin 4096) :
    Cert.ReferenceIdeal.RefValue.padCol a (ix2 (Cert.ReferenceIdeal.RefValue.prow R) (0 : Fin 1)) = a (ix1 R) := by
  unfold Cert.ReferenceIdeal.RefValue.padCol
  refine (pad_apply_of_inside _ _ _ _ _ _ _ _ (ix2 R (0 : Fin 1)) (fun ax => ?_)).trans ?_
  · match ax with
    | ⟨0, _⟩ => show R.val = 0 + R.val * (0 + 1); omega
    | ⟨1, _⟩ => show (0 : ℕ) = 0 + 0 * (0 + 1); rfl
  · exact Keepdims.shapeCast_a_a1_apply a _ R 0

/-- The kernel's result at (b, ch, h, w): the one-pass normalisation of row R's image at (h, w). -/
theorem resK_apply (a0 : FVec Ideal ⟨4, ![8, 512, 64, 64]⟩ .f32) (a1 a2 : FVec Ideal ⟨1, ![4096]⟩ .f32)
    (b : Fin 8) (ch : Fin 512) (h w : Fin 64) (R : Fin 4096) (hR : R.val = b.val * 512 + ch.val) :
    Cert.KernelIdeal.KerValue.resK a0 a1 a2 (ix4 b ch h w)
      = AdainRow.onePass (fun q : Fin 64 × Fin 64 => a0 (ix4 b ch q.1 q.2)) (a1 (ix1 R)) (a2 (ix1 R))
          (Ideal.ofBits .f32 0x39800000#32) (Ideal.ofBits .f32 0x3727C5AC#32) (h, w) := by
  unfold Cert.KernelIdeal.KerValue.resK
  rw [MergeRows.split3_apply _ _ b ch h w R hR]
  unfold Cert.KernelIdeal.KerValue.rowsOnePass
  show AdainRow.onePass (fun q : Fin 64 × Fin 64 => shapeCast Cert.KernelIdeal.S4096x64x64 a0 _ (ix3 R q.1 q.2))
      (shapeCast Cert.KernelIdeal.S4096x1 a1 _ (ix2 R (0 : Fin 1))) (shapeCast Cert.KernelIdeal.S4096x1 a2 _ (ix2 R (0 : Fin 1)))
      _ _ (h, w) = _
  have hf : (fun q : Fin 64 × Fin 64 => shapeCast Cert.KernelIdeal.S4096x64x64 a0 Cert.KernelIdeal.Gen.shapeCasts_S8x512x64x64_S4096x64x64 (ix3 R q.1 q.2))
      = fun q : Fin 64 × Fin 64 => a0 (ix4 b ch q.1 q.2) :=
    funext fun q => MergeRows.merge3_apply a0 _ b ch q.1 q.2 R hR
  rw [hf, Keepdims.shapeCast_a_a1_apply, Keepdims.shapeCast_a_a1_apply]

/-- The reference's result at (b, ch, h, w): the two-pass normalisation of the same image at (h, w). -/
theorem resR_apply (a0 : FVec Ideal ⟨4, ![8, 512, 64, 64]⟩ .f32) (a1 a2 : FVec Ideal ⟨1, ![4096]⟩ .f32)
    (b : Fin 8) (ch : Fin 512) (h w : Fin 64) (R : Fin 4096) (hR : R.val = b.val * 512 + ch.val)
    (J : Fin 4096) (hJ : J.val = h.val * 64 + w.val) :
    Cert.ReferenceIdeal.RefValue.resR a0 a1 a2 (ix4 b ch h w)
      = AdainRow.twoPass (fun q : Fin 64 × Fin 64 => a0 (ix4 b ch q.1 q.2)) (a1 (ix1 R)) (a2 (ix1 R))
          (Ideal.ofBits .f32 0x39800000#32) (Ideal.ofBits .f32 0x3727C5AC#32) (h, w) := by
  unfold Cert.ReferenceIdeal.RefValue.resR
  rw [MergeRows.split2_apply _ _ (by norm_num) b ch h w R hR J hJ]
  unfold Cert.ReferenceIdeal.RefValue.rowsTwoPass
  show AdainRow.twoPass (fun k : Fin 4096 => shapeCast Cert.ReferenceIdeal.S4096x4096 a0 _ (ix2 R k))
      (Cert.ReferenceIdeal.RefValue.padCol a1 (ix2 (Cert.ReferenceIdeal.RefValue.prow R) (0 : Fin 1)))
      (Cert.ReferenceIdeal.RefValue.padCol a2 (ix2 (Cert.ReferenceIdeal.RefValue.prow R) (0 : Fin 1))) _ _ J = _
  have hrow : (fun k : Fin 4096 => shapeCast Cert.ReferenceIdeal.S4096x4096 a0 Cert.ReferenceIdeal.Gen.shapeCasts_S8x512x64x64_S4096x4096 (ix2 R k))
      = fun k : Fin 4096 => (fun q : Fin 64 × Fin 64 => a0 (ix4 b ch q.1 q.2)) (e64.symm k) :=
    funext fun k => MergeRows.merge2_apply a0 _ (by norm_num) b ch (e64.symm k).1 (e64.symm k).2 R hR k (by
      rw [← e64_val, Equiv.apply_symm_apply])
  have hJ' : e64.symm J = (h, w) := (Equiv.symm_apply_eq e64).2 (Fin.ext (by rw [e64_val]; exact hJ))
  rw [hrow, padCol_apply, padCol_apply]
  refine (AdainRow.twoPass_comp e64.symm (fun q : Fin 64 × Fin 64 => a0 (ix4 b ch q.1 q.2)) _ _ _ _ J).trans ?_
  rw [hJ']

/-- THE TWO RESULTS AGREE at arguments whose every entry is a real. -/
theorem res_eq (a0 : FVec Ideal ⟨4, ![8, 512, 64, 64]⟩ .f32) (a1 a2 : FVec Ideal ⟨1, ![4096]⟩ .f32)
    (h0 : ∀ i, ∃ r : ℝ, a0 i = (r : EReal)) (h1 : ∀ i, ∃ r : ℝ, a1 i = (r : EReal)) (h2 : ∀ i, ∃ r : ℝ, a2 i = (r : EReal)) :
    Cert.ReferenceIdeal.RefValue.resR a0 a1 a2 = Cert.KernelIdeal.KerValue.resK a0 a1 a2 := by
  funext i
  obtain ⟨b, ch, h, w, rfl⟩ : ∃ (b : Fin 8) (ch : Fin 512) (h w : Fin 64), i = ix4 b ch h w := ⟨i 0, i 1, i 2, i 3, eq_ix4 i⟩
  have hRlt : b.val * 512 + ch.val < 4096 := by have := b.isLt; have := ch.isLt; omega
  have hJlt : h.val * 64 + w.val < 4096 := by have := h.isLt; have := w.isLt; omega
  rw [resR_apply a0 a1 a2 b ch h w ⟨_, hRlt⟩ rfl ⟨_, hJlt⟩ rfl, resK_apply a0 a1 a2 b ch h w ⟨_, hRlt⟩ rfl]
  choose x0 hx0 using h0
  obtain ⟨r1, hr1⟩ := h1 (ix1 ⟨_, hRlt⟩)
  obtain ⟨r2, hr2⟩ := h2 (ix1 ⟨_, hRlt⟩)
  obtain ⟨ε, hε, heq⟩ := Cert.Finite.eps_pos
  have hf : (fun q : Fin 64 × Fin 64 => a0 (ix4 b ch q.1 q.2))
      = fun q : Fin 64 × Fin 64 => ((x0 (ix4 b ch q.1 q.2) : ℝ) : EReal) := funext fun q => hx0 _
  rw [hf, hr1, hr2, Cert.Finite.inv_len, heq]
  exact (AdainRow.onePass_eq_twoPass (fun q : Fin 64 × Fin 64 => x0 (ix4 b ch q.1 q.2)) r1 r2 (1 / 4096) ε
    (by simp [Fintype.card_prod]) hε (h, w)).symm

end Cert.Bridge

end
-- ==== Proof.lean ====
/-
  Adaptive instance normalisation of x [8, 512, 64, 64] with a scale and a shift per (batch, channel) row: the
  kernel against its reference, on the extended reals.

  Both programs see x as 4096 rows of 4096 entries (64 × 64 images). The kernel takes 64 rows at a time as a
  [64, 64, 64] block and, per row, forms the sum s₁ and the sum of squares s₂ over the image, the mean μ = s₁/4096,
  the variance max(s₂/4096 − μ², 0), ONE scale S = rsqrt(var + ε)·w and writes x·S + (b − μ·S). The reference takes
  288 rows at a time as a [288, 4096] block (the fifteenth block overhangs the array; only its 64 rows inside the
  array are ever read back) and, per row, forms μ the same way, centres the row, takes the variance as the mean of
  the squares of the centred row, and writes (x − μ)·(rsqrt(var + ε)·w) + b.

  On real entries these are one function: Σ (x − μ)² / n = s₂/n − μ² when n·(1/n) = 1 — the constant both programs
  multiply by is the word of 2⁻¹², exactly 1/4096 — which is a sum of squares over n, hence nonnegative, so the
  kernel's maximum with zero changes nothing; and x·S + (b − μ·S) = (x − μ)·S + b. Both steps use that every entry
  is a real number (they fail at infinities), which is what the precondition gives. The sums over a 64 × 64 image
  and over a row of 4096 entries are the same sum along (h, w) ↦ 64·h + w.

  The modules: LibAdainLaw (the two arrangements of one row and the law), KerPayload / KerFinal (the kernel's body
  at an index, its blocks pieced into the result array, its run with the result named), RefData / RefBody (the
  reference's proof data and its frame over the cut blocks), RefPayload / RefLocal / RefRes / RefFinal (the
  reference's body at an index, that an output row depends on its own input row only, the arrays its call finds,
  its blocks pieced into the result array, its run with the result named), Finite (the precondition read as
  "every entry is a real", and the two constants), Bridge (the two result functions are equal at real arguments).
-/
import proofs.«136191_g2000609365309440_pallasbulk_1167_4_alg».proof.Defs
import proofs.«136191_g2000609365309440_pallasbulk_1167_4_alg».proof.Proof.Gen.Kernel
import proofs.«136191_g2000609365309440_pallasbulk_1167_4_alg».proof.Proof.Gen.Kernel.Skeleton
import proofs.«136191_g2000609365309440_pallasbulk_1167_4_alg».proof.Proof.Gen.Kernel.Launch
import proofs.«136191_g2000609365309440_pallasbulk_1167_4_alg».proof.Proof.Gen.Kernel.Points
import proofs.«136191_g2000609365309440_pallasbulk_1167_4_alg».proof.Proof.Gen.Kernel.Frame
import proofs.«136191_g2000609365309440_pallasbulk_1167_4_alg».proof.Proof.Gen.KernelIdeal
import proofs.«136191_g2000609365309440_pallasbulk_1167_4_alg».proof.Proof.Gen.KernelIdeal.Skeleton
import proofs.«136191_g2000609365309440_pallasbulk_1167_4_alg».proof.Proof.Gen.KernelIdeal.Launch
import proofs.«136191_g2000609365309440_pallasbulk_1167_4_alg».proof.Proof.Gen.KernelIdeal.Points
import proofs.«136191_g2000609365309440_pallasbulk_1167_4_alg».proof.Proof.Gen.KernelIdeal.Frame
import proofs.«136191_g2000609365309440_pallasbulk_1167_4_alg».proof.Proof.Gen.ReferenceIdeal
import proofs.«136191_g2000609365309440_pallasbulk_1167_4_alg».proof.Proof.Gen.ReferenceIdeal.Skeleton
import proofs.«136191_g2000609365309440_pallasbulk_1167_4_alg».proof.Proof.Gen.ReferenceIdeal.Launch
import proofs.«136191_g2000609365309440_pallasbulk_1167_4_alg».proof.Proof.Gen.ReferenceIdeal.Points
import proofs.«136191_g2000609365309440_pallasbulk_1167_4_alg».proof.Proof.Gen.ReferenceIdeal.Frame
import proofs.«136191_g2000609365309440_pallasbulk_1167_4_alg».proof.Proof.Gen.Pre_finite_inputs
import proofs.«136191_g2000609365309440_pallasbulk_1167_4_alg».proof.Proof.KerFinal
import proofs.«136191_g2000609365309440_pallasbulk_1167_4_alg».proof.Proof.RefFinal
import proofs.«136191_g2000609365309440_pallasbulk_1167_4_alg».proof.Proof.Finite
import proofs.«136191_g2000609365309440_pallasbulk_1167_4_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference read on the extended reals: its body leaves, on the rows of each block that lie inside
    the array, a function of those rows alone. -/
theorem frame_ri : Cert.frame_ReferenceIdeal := fun m ρ _ =>
  Cert.ReferenceIdeal.RefFrame.frame (F := Ideal) m ρ Cert.ReferenceIdeal.RefValue.rowLocal

/-- The idealization rewrote no operation of the kernel. -/
theorem preserves : Cert.preserves_Kernel_KernelIdeal := trivial

/-- From memories that agree on real-valued arguments both programs run, and their results are equal entry by
    entry: the kernel's is the one-pass normalisation of each row, the reference's the two-pass one. -/
theorem algebraic : Cert.algebraic_KernelIdeal_ReferenceIdeal := by
  intro m ρ m' ρ' hpre hagree
  refine ⟨fun c => Cert.KernelIdeal.KerValue.resK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run_k m ρ, ?_⟩
  refine (θ_run Cert.ReferenceIdeal.defs _ _).mono (fun r h c => ⟨(h c).1.trans ?_, (h c).2⟩)
    (Cert.ReferenceIdeal.RefValue.run_r m' ρ')
  obtain ⟨h0, h1, h2⟩ := Cert.Finite.real_of_finite _ _ _ (hpre c)
  rw [(hagree c).1, (hagree c).2.1, (hagree c).2.2]
  exact Cert.Bridge.res_eq _ _ _ h0 h1 h2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
